-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32x256x2048 : Shape := ⟨3, ![32, 256, 2048]⟩
abbrev S32x256 : Shape := ⟨2, ![32, 256]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x256x2048 : S_.BroadcastsInDim S32x256x2048 (![] : Fin 0 → Fin S32x256x2048.rank)
  reducesTo_S32x256x2048_S_d0_1_2 : S32x256x2048.ReducesTo [0, 1, 2] S_
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S32x2048x256 .f32) (main_arg1 : FVec F S32x256x2048 .f32) (main_arg2 : FVec F S32x256 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  main_v13
-- ==== Kernel.lean ====
abbrev S32x2048x256 : Shape := ⟨3, ![32, 2048, 256]⟩
abbrev S32x256x2048 : Shape := ⟨3, ![32, 256, 2048]⟩
abbrev S32x256 : Shape := ⟨2, ![32, 256]⟩
abbrev S32x256x1 : Shape := ⟨3, ![32, 256, 1]⟩
abbrev S32x256x256 : Shape := ⟨3, ![32, 256, 256]⟩
abbrev S2x2048x256 : Shape := ⟨3, ![2, 2048, 256]⟩
abbrev S2x256x2048 : Shape := ⟨3, ![2, 256, 2048]⟩
abbrev S2x256x1 : Shape := ⟨3, ![2, 256, 1]⟩
abbrev S2x256x256 : Shape := ⟨3, ![2, 256, 256]⟩

abbrev nBuf : Space → Nat
  | .hbm => 5
  | .vmem => 8
  | .smem => 0
  | _ => 0

abbrev bufTy : (tb : Table) → Fin (tcTables nBuf tb) → BufTy
  | .hbm, ⟨0, _⟩ => ⟨S32x2048x256, .f32⟩
  | .hbm, ⟨1, _⟩ => ⟨S32x256x2048, .f32⟩
  | .hbm, ⟨2, _⟩ => ⟨S32x256, .f32⟩
  | .hbm, ⟨3, _⟩ => ⟨S32x256x1, .f32⟩
  | .hbm, ⟨4, _⟩ => ⟨S32x256x256, .f32⟩
  | .local _ .vmem, ⟨0, _⟩ => ⟨S2x2048x256, .f32⟩
  | .local _ .vmem, ⟨1, _⟩ => ⟨S2x2048x256, .f32⟩
  | .local _ .vmem, ⟨2, _⟩ => ⟨S2x256x2048, .f32⟩
  | .local _ .vmem, ⟨3, _⟩ => ⟨S2x256x2048, .f32⟩
  | .local _ .vmem, ⟨4, _⟩ => ⟨S2x256x1, .f32⟩
  | .local _ .vmem, ⟨5, _⟩ => ⟨S2x256x1, .f32⟩
  | .local _ .vmem, ⟨6, _⟩ => ⟨S2x256x256, .f32⟩
  | .local _ .vmem, ⟨7, _⟩ => ⟨S2x256x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S32x256_S32x256x1_0_1 : S32x256.BroadcastsInDim S32x256x1 (![0, 1] : Fin 2 → Fin S32x256x1.rank)
  inb_S2x2048x256_S2x2048x256_0_0_0 : ∀ a, (![0, 0, 0] : Fin 3 → Nat) a + S2x2048x256.size a ≤ S2x2048x256.size a
  h_S2x2048x256 : 0 < S2x2048x256.numel
  bitsLt_bf16_f32 : FTy.bits .bf16 < FTy.bits .f32
  inb_S2x256x2048_S2x256x2048_0_0_0 : ∀ a, (![0, 0, 0] : Fin 3 → Nat) a + S2x256x2048.size a ≤ S2x256x2048.size a
  h_S2x256x2048 : 0 < S2x256x2048.numel
  inb_S2x256x1_S2x256x1_0_0_0 : ∀ a, (![0, 0, 0] : Fin 3 → Nat) a + S2x256x1.size a ≤ S2x256x1.size a
  h_S2x256x1 : 0 < S2x256x1.numel
  shapeCasts_S2x256x1_S2x256x1 : S2x256x1.ShapeCasts S2x256x1
  broadcasts_S2x256x1_S2x256x256 : S2x256x1.Broadcasts S2x256x256
  inb_S2x256x256_S2x256x256_0_0_0 : ∀ a, (![0, 0, 0] : Fin 3 → Nat) a + S2x256x256.size a ≤ S2x256x256.size a
  h_S2x256x256 : 0 < S2x256x256.numel
  dot_S2x256x2048_S2x2048x256_S2x256x256_2_1_1_2_0_0_wf : DotDims.WF S2x256x2048 S2x2048x256 S2x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x256.size a ≤ S32x2048x256.size a
  hwx0_0 : ∀ i : grid0.Coords, EltTy.bits .f32 = 32 ∨ (Rect.block (s := S32x2048x256) S2x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x2048.size a ≤ S32x256x2048.size a
  hwx0_1 : ∀ i : grid0.Coords, EltTy.bits .f32 = 32 ∨ (Rect.block (s := S32x256x2048) S2x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1.size a ≤ S32x256x1.size a
  hwx0_2 : ∀ i : grid0.Coords, EltTy.bits .f32 = 32 ∨ (Rect.block (s := S32x256x1) S2x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x256.size a ≤ S32x256x256.size a
  hwx0_3 : ∀ i : grid0.Coords, EltTy.bits .f32 = 32 ∨ (Rect.block (s := S32x256x256) S2x256x256.size (cc0_transform_3 i) (hinb0_3 i)).WholeWords (EltTy.packing .f32)

variable [Facts₀]

def dot_S2x256x2048_S2x2048x256_S2x256x256_2_1_1_2_0_0 : DotDims S2x256x2048 S2x2048x256 S2x256x256 where
  lhsContracting := [2]
  rhsContracting := [1]
  lhsNonContracting := [1]
  rhsNonContracting := [2]
  lhsBatch := [0]
  rhsBatch := [0]
  wf := dot_S2x256x2048_S2x2048x256_S2x256x256_2_1_1_2_0_0_wf

abbrev win0_0 : Pipeline.Window sig grid0 :=
  Pipeline.Window.ofSpec (Memref.whole main_arg0) S2x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x256 : Shape := ⟨3, ![32, 2048, 256]⟩
abbrev S32x256x2048 : Shape := ⟨3, ![32, 256, 2048]⟩
abbrev S32x256 : Shape := ⟨2, ![32, 256]⟩
abbrev S32x256x256 : Shape := ⟨3, ![32, 256, 256]⟩
abbrev S32x256x1 : Shape := ⟨3, ![32, 256, 1]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x256x2048, .f32⟩
  | .hbm, ⟨2, _⟩ => ⟨S32x256, .f32⟩
  | .hbm, ⟨3, _⟩ => ⟨S32x256x256, .f32⟩
  | .hbm, ⟨4, _⟩ => ⟨S32x256x1, .f32⟩
  | .hbm, ⟨5, _⟩ => ⟨S32x256x256, .f32⟩
  | .hbm, ⟨6, _⟩ => ⟨S32x256x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S32x256_S32x256x1_0_1 : S32x256.BroadcastsInDim S32x256x1 (![0, 1] : Fin 2 → Fin S32x256x1.rank)
  bcast_S32x256x1_S32x256x256_0_1_2 : S32x256x1.BroadcastsInDim S32x256x256 (![0, 1, 2] : Fin 3 → Fin S32x256x256.rank)
  dot_S32x256x2048_S32x2048x256_S32x256x256_2_1_1_2_0_0_wf : DotDims.WF S32x256x2048 S32x2048x256 S32x256x256 [2] [1] [1] [2] [0] [0]

variable [Facts₀]

def dot_S32x256x2048_S32x2048x256_S32x256x256_2_1_1_2_0_0 : DotDims S32x256x2048 S32x2048x256 S32x256x256 where
  lhsContracting := [2]
  rhsContracting := [1]
  lhsNonContracting := [1]
  rhsNonContracting := [2]
  lhsBatch := [0]
  rhsBatch := [0]
  wf := dot_S32x256x2048_S32x2048x256_S32x256x256_2_1_1_2_0_0_wf

class Facts : Prop extends Facts₀ where

variable [Facts]
-- ==== Proof.Pooled.lean ====
/-
  Entity mean pooling, as one function of the three argument arrays.

  A batch holds 2048 document positions with 256 features each (`doc`, indexed batch, position, feature), 256 entities
  each with a weight for every position (`span`, indexed batch, entity, position), and a length for every entity
  (`len`, indexed batch, entity). The pooled state of entity `e` of batch `b` at feature `d` is the weighted sum of
  that feature over the positions, divided by the entity's length:

      pooled doc span len (b, e, d) = (∑ l < 2048, span (b, e, l) · doc (b, l, d)) / len (b, e)

  over the extended reals, the quotient being `Ideal.div` (which is total: a zero or infinite length is read by the same
  function on both sides of the comparison this certificate makes, so no case of it is ever opened).
-/
import Idealize.ShloMosaic.PureOps.Ideal
import Idealize.ShloMosaic.Lib.ValueIdx

noncomputable section

namespace Cert.Pooling

open Idealize.ShloMosaic Idealize.ShloMosaic.ValueIdx

/-- The pooled state at batch `b`, entity `e`, feature `d`: the entity's weights against that feature of every position,
    summed over the 2048 positions, over the entity's length. -/
def pooledAt (doc : (⟨3, ![32, 2048, 256]⟩ : Shape).Idx → EReal) (span : (⟨3, ![32, 256, 2048]⟩ : Shape).Idx → EReal)
    (len : (⟨2, ![32, 256]⟩ : Shape).Idx → EReal) (b : Fin 32) (e : Fin 256) (d : Fin 256) : EReal :=
  Ideal.div (∑ l : Fin 2048, span (ix3 b e l) * doc (ix3 b l d)) (len (ix2 b e))

/-- The whole pooled array, index by index. -/
def pooled (doc : (⟨3, ![32, 2048, 256]⟩ : Shape).Idx → EReal) (span : (⟨3, ![32, 256, 2048]⟩ : Shape).Idx → EReal)
    (len : (⟨2, ![32, 256]⟩ : Shape).Idx → EReal) : (⟨3, ![32, 256, 256]⟩ : Shape).Idx → EReal :=
  fun i => pooledAt doc span len (i 0) (i 1) (i 2)

theorem pooled_apply (doc : (⟨3, ![32, 2048, 256]⟩ : Shape).Idx → EReal) (span : (⟨3, ![32, 256, 2048]⟩ : Shape).Idx → EReal)
    (len : (⟨2, ![32, 256]⟩ : Shape).Idx → EReal) (i : (⟨3, ![32, 256, 256]⟩ : Shape).Idx) :
    pooled doc span len i
      = Ideal.div (∑ l : Fin 2048, span (ix3 (i 0) (i 1) l) * doc (ix3 (i 0) l (i 2))) (len (ix2 (i 0) (i 1))) := rfl

end Cert.Pooling

end
-- ==== Proof.RefPooled.lean ====
/-
  The reference computes `pooled`.

  Its four operations are a batched product of `span` with `doc` contracting the position axis, the lengths given a
  trailing unit axis and then repeated along the feature axis, and the elementwise quotient. Read at an index (b, e, d):
  the product is the sum over the positions `l` of span (b, e, l) · doc (b, l, d); the repeated lengths are len (b, e)
  whatever `d` is; and the host's quotient is `Ideal.div`. That is `pooled` at (b, e, d), term for term.
-/
import proofs.«128515_j6665789243982_2_alg».proof.Proof.Gen.ReferenceIdeal.Read
import proofs.«128515_j6665789243982_2_alg».proof.Proof.Pooled

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Pooling

/-- The left factor of the product at output index `i` and position `l` sits at (batch, entity, position). -/
theorem span_idx (i : S32x256x256.Idx) (l : Fin 2048) : lidx_main_v0 i l = ix3 (i 0) (i 1) l :=
  funext fun a => by match a with | ⟨0, _⟩ => rfl | ⟨1, _⟩ => rfl | ⟨2, _⟩ => rfl

/-- The right factor sits at (batch, position, feature). -/
theorem doc_idx (i : S32x256x256.Idx) (l : Fin 2048) : ridx_main_v0 i l = ix3 (i 0) l (i 2) :=
  funext fun a => by match a with | ⟨0, _⟩ => rfl | ⟨1, _⟩ => rfl | ⟨2, _⟩ => rfl

/-- The divisor at output index `i` is the length at (batch, entity): the two broadcasts drop the feature coordinate. -/
theorem len_idx (i : S32x256x256.Idx) : idx_main_v1 (idx_main_v2 i) = ix2 (i 0) (i 1) :=
  funext fun a => by match a with | ⟨0, _⟩ => rfl | ⟨1, _⟩ => rfl

/-- The reference's result, as a function of the three arguments, is `pooled`. -/
theorem ref_pooled (x0 : (⟨S32x2048x256, .f32⟩ : BufTy).Contents (Elt Ideal)) (x1 : (⟨S32x256x2048, .f32⟩ : BufTy).Contents (Elt Ideal))
    (x2 : (⟨S32x256, .f32⟩ : BufTy).Contents (Elt Ideal)) :
    val_main_v3 (F := Ideal) x0 x1 x2 = pooled x0 x1 x2 := by
  funext i
  rw [val_main_v3_apply, val_main_v0_apply, val_main_v2_apply, val_main_v1_apply, pooled_apply, Ideal.hostDivf_def, len_idx]
  refine congrArg (fun s => Ideal.div s (x2 (ix2 (i 0) (i 1)))) (Finset.sum_congr rfl fun l _ => ?_)
  rw [span_idx, doc_idx]
  rfl

end Cert.ReferenceIdeal.RefValue

end
-- ==== Proof.BlockValue.lean ====
/-
  What the kernel's body computes on one grid point's blocks, read at an index.

  A point holds two batches: a block `x0` of document states [2, 2048, 256], a block `x1` of entity weights
  [2, 256, 2048] and a block `x2` of entity lengths [2, 256, 1]. The body rounds `x0` and `x1` to bf16 (the identity on
  the extended reals), multiplies them batch by batch contracting the position axis into a zero accumulator, repeats the
  lengths along the feature axis, and divides. At (p, q, r) of the block that is

      (∑ l < 2048, x1 (p, q, l) · x0 (p, l, r)) / x2 (p, q, 0).
-/
import proofs.«128515_j6665789243982_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.TcCoe Idealize.ShloMosaic.ValueIdx

/-- The dimension numbers of the body's product: batch axis 0 of both operands, the weights' axis 2 contracted with the
    states' axis 1. -/
abbrev dims : DotDims S2x256x2048 S2x2048x256 S2x256x256 := dot_S2x256x2048_S2x2048x256_S2x256x256_2_1_1_2_0_0

/-! ## The operand indices of the product, coordinate by coordinate -/

theorem lhs_0 (j : S2x256x256.Idx) (q : dims.contr.Idx) : (dims.lhsIdx j q 0).val = (j 0).val := by
  unfold DotDims.lhsIdx
  rw [dif_pos (show (0 : Fin S2x256x2048.rank) ∈ dims.lhsBatch by decide)]
  rfl
theorem lhs_1 (j : S2x256x256.Idx) (q : dims.contr.Idx) : (dims.lhsIdx j q 1).val = (j 1).val := by
  unfold DotDims.lhsIdx
  rw [dif_neg (show ¬(1 : Fin S2x256x2048.rank) ∈ dims.lhsBatch by decide),
    dif_pos (show (1 : Fin S2x256x2048.rank) ∈ dims.lhsNonContracting by decide)]
  rfl
theorem lhs_2 (j : S2x256x256.Idx) (q : dims.contr.Idx) : (dims.lhsIdx j q 2).val = (q ⟨0, by decide⟩).val :=
  dims.lhsIdx_val_of_single rfl j q
theorem rhs_0 (j : S2x256x256.Idx) (q : dims.contr.Idx) : (dims.rhsIdx j q 0).val = (j 0).val := by
  unfold DotDims.rhsIdx
  rw [dif_pos (show (0 : Fin S2x2048x256.rank) ∈ dims.rhsBatch by decide)]
  rfl
theorem rhs_1 (j : S2x256x256.Idx) (q : dims.contr.Idx) : (dims.rhsIdx j q 1).val = (q ⟨0, by decide⟩).val :=
  dims.rhsIdx_val_of_single rfl j q
theorem rhs_2 (j : S2x256x256.Idx) (q : dims.contr.Idx) : (dims.rhsIdx j q 2).val = (j 2).val := by
  unfold DotDims.rhsIdx
  rw [dif_neg (show ¬(2 : Fin S2x2048x256.rank) ∈ dims.rhsBatch by decide),
    dif_pos (show (2 : Fin S2x2048x256.rank) ∈ dims.rhsNonContracting by decide)]
  rfl

/-! ## The product at an index -/

/-- The batched product into the zero accumulator, at (p, q, r): the sum over the 2048 positions of the weight at
    (p, q, l) times the state at (p, l, r). -/
theorem product_apply (w : FVec Ideal S2x256x2048 .bf16) (s : FVec Ideal S2x2048x256 .bf16) (j : S2x256x256.Idx) :
    matmul dims none w s (constant (F := Ideal) S2x256x256 .f32 0x00000000#32) j
      = ∑ l : Fin 2048, w (ix3 (j 0) (j 1) l) * s (ix3 (j 0) l (j 2)) := by
  simp only [matmul]
  rw [Ideal.matmul_constant_zero_apply, ← Equiv.sum_comp (ValueIdx.contrEquiv1 dims 2048 rfl rfl).symm]
  refine Finset.sum_congr rfl fun l _ => ?_
  have hl := ValueIdx.contrEquiv1_symm_val dims 2048 rfl rfl l
  have el : dims.lhsIdx j ((ValueIdx.contrEquiv1 dims 2048 rfl rfl).symm l) = ix3 (j 0) (j 1) l :=
    funext fun a => Fin.ext (by
      match a with
      | ⟨0, _⟩ => exact lhs_0 _ _
      | ⟨1, _⟩ => exact lhs_1 _ _
      | ⟨2, _⟩ => exact (lhs_2 _ _).trans hl)
  have er : dims.rhsIdx j ((ValueIdx.contrEquiv1 dims 2048 rfl rfl).symm l) = ix3 (j 0) l (j 2) :=
    funext fun a => Fin.ext (by
      match a with
      | ⟨0, _⟩ => exact rhs_0 _ _
      | ⟨1, _⟩ => exact (rhs_1 _ _).trans hl
      | ⟨2, _⟩ => exact rhs_2 _ _)
  rw [el, er]
  rfl

/-! ## The lengths repeated along the feature axis -/

/-- The lengths block [2, 256, 1], recast to its own shape and broadcast to [2, 256, 256], at (p, q, r) is the length at
    (p, q, 0). -/
theorem lengths_apply (x2 : Vec Ideal S2x256x1 .f32) (j : S2x256x256.Idx) :
    broadcastTo S2x256x256 (shapeCast S2x256x1 x2 shapeCasts_S2x256x1_S2x256x1) broadcasts_S2x256x1_S2x256x256 j
      = x2 (ix3 (j 0) (j 1) (0 : Fin 1)) := by
  rw [shapeCast_self]
  exact broadcastTo_apply x2 broadcasts_S2x256x1_S2x256x256 j (ix3 (j 0) (j 1) (0 : Fin 1)) (fun a => match a with
    | ⟨0, _⟩ => by show (j 0).val = if (2 : Nat) = 1 then 0 else (j 0).val; rw [if_neg (by decide)]
    | ⟨1, _⟩ => by show (j 1).val = if (256 : Nat) = 1 then 0 else (j 1).val; rw [if_neg (by decide)]
    | ⟨2, _⟩ => by show 0 = if (1 : Nat) = 1 then 0 else (j 2).val; rw [if_pos rfl])

/-! ## The body's stored value at an index -/

/-- The value the body stores, at (p, q, r) of the point's output block. -/
theorem stored_apply (x0 : Vec Ideal S2x2048x256 .f32) (x1 : Vec Ideal S2x256x2048 .f32) (x2 : Vec Ideal S2x256x1 .f32)
    (j : S2x256x256.Idx) :
    k0_pay1 (F := Ideal) x0 x1 x2 j
      = Ideal.div (∑ l : Fin 2048, x1 (ix3 (j 0) (j 1) l) * x0 (ix3 (j 0) l (j 2))) (x2 (ix3 (j 0) (j 1) (0 : Fin 1))) := by
  unfold k0_pay1
  show Ideal.div (matmul dims none (truncf .bf16 x1 bitsLt_bf16_f32) (truncf .bf16 x0 bitsLt_bf16_f32)
      (constant (F := Ideal) S2x256x256 .f32 0x00000000#32) j)
    (broadcastTo S2x256x256 (shapeCast S2x256x1 x2 shapeCasts_S2x256x1_S2x256x1) broadcasts_S2x256x1_S2x256x256 j) = _
  rw [product_apply, lengths_apply]
  rfl

end Cert.KernelIdeal.Block

end
-- ==== Proof.WholeArray.lean ====
/-
  From the grid's blocks to the whole result array.

  The grid has 16 points; point `t` holds batches `2t` and `2t + 1`: every window's block index is (t, 0, 0), so a block
  element (p, q, r) sits in its array at (2t + p, q, r). The lengths reach the kernel through an array [32, 256, 1] that
  the host fills from the argument [32, 256] by giving it a trailing unit axis, so its element (b, e, 0) is the length at
  (b, e). Hence what point `t` writes back — the body's value on the point's three input blocks — is, element by element,
  `pooled` of the three argument arrays at the element's place in the result array. The 16 output blocks are the 16
  pairs of batches, which cover the array; so the array ends as `pooled` of the arguments.
-/
import proofs.«128515_j6665789243982_2_alg».proof.Proof.Gen.KernelIdeal.Value
import proofs.«128515_j6665789243982_2_alg».proof.Proof.BlockValue
import proofs.«128515_j6665789243982_2_alg».proof.Proof.Pooled
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Value Cert.KernelIdeal.Block
open Idealize.ShloMosaic Idealize.ShloMosaic.TcCoe Idealize.ShloMosaic.ValueIdx Idealize.SL.Sem Cert.Pooling
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The result: `pooled` of the three argument arrays as launched. -/
abbrev result (c : Dev nD) : Buf (Elt Ideal) ((c : Thread nD τ).loc main_v1) :=
  pooled (m ((c : Thread nD τ).loc main_arg0)) (m ((c : Thread nD τ).loc main_arg1)) (m ((c : Thread nD τ).loc main_arg2))

/-! ## The index maps, decided over the 16 points -/

/-- Every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The lengths array the region finds -/

/-- The host gives the lengths a trailing unit axis before the region. -/
theorem lens_entry (c : Dev nD) :
    (V m c main_v0 : S32x256x1.Idx → EReal)
      = broadcastInDim S32x256x1 ![0, 1] bcast_S32x256_S32x256x1_0_1 (m ((c : Thread nD τ).loc main_arg2) : S32x256.Idx → EReal) := by
  dsimp only [Gen.V, Gen.hostOps0]; after_results

/-- So its element (b, e, 0) is the length at (b, e). -/
theorem lens_entry_apply (c : Dev nD) (k : S32x256x1.Idx) :
    (V m c main_v0 : S32x256x1.Idx → EReal) k = (m ((c : Thread nD τ).loc main_arg2) : S32x256.Idx → EReal) (ix2 (k 0) (k 1)) := by
  rw [lens_entry]
  exact broadcastInDim_apply _ bcast_S32x256_S32x256x1_0_1 _ k (ix2 (k 0) (k 1)) (fun a => match a with
    | ⟨0, _⟩ => by show (k 0).val = if (32 : Nat) = 1 then 0 else (k 0).val; rw [if_neg (by decide)]
    | ⟨1, _⟩ => by show (k 1).val = if (256 : Nat) = 1 then 0 else (k 1).val; rw [if_neg (by decide)])

/-! ## Each input block, read off its argument array -/

/-- The document block at point `t`: its (p, l, r) is the argument's (2t + p, l, r). -/
theorem doc_block (c : Dev nD) (t : Fin cfg0.N) (y : S2x2048x256.Idx) (k : S32x2048x256.Idx)
    (h0 : (k 0).val = 2 * t.val + (y 0).val) (h1 : (k 1).val = (y 1).val) (h2 : (k 2).val = (y 2).val) :
    (iblk m c 0 t : Vec Ideal S2x2048x256 .f32) y = (m ((c : Thread nD τ).loc main_arg0) : S32x2048x256.Idx → EReal) k := by
  obtain ⟨e0, e1, e2, -⟩ := idx_facts t
  unfold iblk
  rw [View.read_apply]
  show V m c main_arg0 (((cfg0.win 0).blk t).view.emb y) = _
  rw [V_main_arg0]
  refine congrArg _ (funext fun a => Fin.ext ?_)
  match a with
  | ⟨0, _⟩ => show win0_0.index t (0 : Fin 3) * 2 + 1 * (y 0).val = (k 0).val; omega
  | ⟨1, _⟩ => show win0_0.index t (1 : Fin 3) * 2048 + 1 * (y 1).val = (k 1).val; omega
  | ⟨2, _⟩ => show win0_0.index t (2 : Fin 3) * 256 + 1 * (y 2).val = (k 2).val; omega

/-- The weights block at point `t`: its (p, q, l) is the argument's (2t + p, q, l). -/
theorem span_block (c : Dev nD) (t : Fin cfg0.N) (y : S2x256x2048.Idx) (k : S32x256x2048.Idx)
    (h0 : (k 0).val = 2 * t.val + (y 0).val) (h1 : (k 1).val = (y 1).val) (h2 : (k 2).val = (y 2).val) :
    (iblk m c 1 t : Vec Ideal S2x256x2048 .f32) y = (m ((c : Thread nD τ).loc main_arg1) : S32x256x2048.Idx → EReal) k := by
  obtain ⟨-, -, -, e0, e1, e2, -⟩ := idx_facts t
  unfold iblk
  rw [View.read_apply]
  show V m c main_arg1 (((cfg0.win 1).blk t).view.emb y) = _
  rw [V_main_arg1]
  refine congrArg _ (funext fun a => Fin.ext ?_)
  match a with
  | ⟨0, _⟩ => show win0_1.index t (0 : Fin 3) * 2 + 1 * (y 0).val = (k 0).val; omega
  | ⟨1, _⟩ => show win0_1.index t (1 : Fin 3) * 256 + 1 * (y 1).val = (k 1).val; omega
  | ⟨2, _⟩ => show win0_1.index t (2 : Fin 3) * 2048 + 1 * (y 2).val = (k 2).val; omega

/-- The lengths block at point `t`: its (p, q, 0) is the argument's (2t + p, q). -/
theorem len_block (c : Dev nD) (t : Fin cfg0.N) (y : S2x256x1.Idx) (k : S32x256.Idx)
    (h0 : (k 0).val = 2 * t.val + (y 0).val) (h1 : (k 1).val = (y 1).val) :
    (iblk m c 2 t : Vec Ideal S2x256x1 .f32) y = (m ((c : Thread nD τ).loc main_arg2) : S32x256.Idx → EReal) k := by
  obtain ⟨-, -, -, -, -, -, e0, e1, e2, -⟩ := idx_facts t
  unfold iblk
  rw [View.read_apply]
  show (V m c main_v0 : S32x256x1.Idx → EReal) (((cfg0.win 2).blk t).view.emb y) = _
  rw [lens_entry_apply]
  refine congrArg _ (funext fun a => Fin.ext ?_)
  match a with
  | ⟨0, _⟩ => show win0_2.index t (0 : Fin 3) * 2 + 1 * (y 0).val = (k 0).val; omega
  | ⟨1, _⟩ => show win0_2.index t (1 : Fin 3) * 256 + 1 * (y 1).val = (k 1).val; omega

/-- Where an element (p, q, r) of point `t`'s output block sits in the result array: (2t + p, q, r). -/
theorem out_coord (t : Fin cfg0.N) (j : S2x256x256.Idx) :
    ((((cfg0.win 3).blk t).view.emb j : S32x256x256.Idx) 0).val = 2 * t.val + (j 0).val
    ∧ ((((cfg0.win 3).blk t).view.emb j : S32x256x256.Idx) 1).val = (j 1).val
    ∧ ((((cfg0.win 3).blk t).view.emb j : S32x256x256.Idx) 2).val = (j 2).val := by
  obtain ⟨-, -, -, -, -, -, -, -, -, e0, e1, e2⟩ := idx_facts t
  refine ⟨?_, ?_, ?_⟩
  · show win0_3.index t (0 : Fin 3) * 2 + 1 * (j 0).val = _; omega
  · show win0_3.index t (1 : Fin 3) * 256 + 1 * (j 1).val = _; omega
  · show win0_3.index t (2 : Fin 3) * 256 + 1 * (j 2).val = _; omega

/-! ## What a point writes back -/

/-- The body's value on point `t`'s three input blocks, at (p, q, r), is `result` at (2t + p, q, r): the weights and the
    states of batch 2t + p over all positions, and that batch's lengths. -/
theorem block_value (c : Dev nD) (t : Fin cfg0.N) (j : S2x256x256.Idx) (i : S32x256x256.Idx)
    (h0 : (i 0).val = 2 * t.val + (j 0).val) (h1 : (i 1).val = (j 1).val) (h2 : (i 2).val = (j 2).val) :
    k0_pay1 (F := Ideal) (iblk m c 0 t) (iblk m c 1 t) (iblk m c 2 t) j = result m c i := by
  refine (stored_apply (iblk m c 0 t) (iblk m c 1 t) (iblk m c 2 t) j).trans ?_
  refine Eq.trans ?_ (pooled_apply _ _ _ i).symm
  refine congrArg₂ Ideal.div (Finset.sum_congr rfl fun l _ => congrArg₂ (· * ·) ?_ ?_) ?_
  · exact span_block m c t (ix3 (j 0) (j 1) l) (ix3 (i 0) (i 1) l) h0 h1 rfl
  · exact doc_block m c t (ix3 (j 0) l (j 2)) (ix3 (i 0) l (i 2)) h0 rfl h2
  · exact len_block m c t (ix3 (j 0) (j 1) (0 : Fin 1)) (ix2 (i 0) (i 1)) h0 h1

/-- Point `t` writes back block `t` of `result`. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S2x2048x256) hz, View.ld_unit_zero (S := S2x256x2048) hz, View.ld_unit_zero (S := S2x256x1) hz]
  funext j
  show k0_pay1 (F := Ideal) (iblk m c 0 t) (iblk m c 1 t) (iblk m c 2 t) j = result m c (((cfg0.win 3).blk t).view.emb j)
  obtain ⟨o0, o1, o2⟩ := out_coord t j
  exact block_value m c t j _ o0 o1 o2

/-! ## The blocks cover the array -/

/-- An index of the result array is in point `t`'s block iff each coordinate is in the block's range on its axis. -/
theorem mem_blk (t : Fin cfg0.N) (i : S32x256x256.Idx) :
    i ∈ ((cfg0.win 3).blk t).view.set ↔ ∀ a : Fin 3, win0_3.index t a * S2x256x256.size a ≤ (i a).val
      ∧ (i a).val < win0_3.index t a * S2x256x256.size a + S2x256x256.size a := by
  show i ∈ ((View.whole main_v1).slice (win0_3.rect t)).set ↔ _
  rw [View.set_slice_whole, Rect.mem_set_unit]
  exact Iff.rfl

/-- Batch `b` is in the block of point `b / 2`. -/
theorem cover (i : S32x256x256.Idx) :
    ∃ t : Fin cfg0.N, (cfg0.win 3).flush t = true ∧ i ∈ ((cfg0.win 3).blk t).view.set := by
  have hN : grid0.N = 16 := N_0
  have hi0 : (i 0).val < 32 := (i 0).isLt
  have hi1 : (i 1).val < 256 := (i 1).isLt
  have hi2 : (i 2).val < 256 := (i 2).isLt
  have ht : (i 0).val / 2 < grid0.N := by omega
  obtain ⟨-, -, -, -, -, -, -, -, -, e0, e1, e2⟩ := idx_facts (⟨(i 0).val / 2, ht⟩ : Fin cfg0.N)
  have e0' : win0_3.index (⟨(i 0).val / 2, ht⟩ : Fin cfg0.N) (0 : Fin 3) = (i 0).val / 2 := e0
  refine ⟨⟨(i 0).val / 2, ht⟩, flush0_3 _, ?_⟩
  rw [mem_blk]
  intro a
  match a with
  | ⟨0, _⟩ =>
    show win0_3.index (⟨(i 0).val / 2, ht⟩ : Fin cfg0.N) (0 : Fin 3) * 2 ≤ (i 0).val
      ∧ (i 0).val < win0_3.index (⟨(i 0).val / 2, ht⟩ : Fin cfg0.N) (0 : Fin 3) * 2 + 2
    omega
  | ⟨1, _⟩ =>
    show win0_3.index (⟨(i 0).val / 2, ht⟩ : Fin cfg0.N) (1 : Fin 3) * 256 ≤ (i 1).val
      ∧ (i 1).val < win0_3.index (⟨(i 0).val / 2, ht⟩ : Fin cfg0.N) (1 : Fin 3) * 256 + 256
    omega
  | ⟨2, _⟩ =>
    show win0_3.index (⟨(i 0).val / 2, ht⟩ : Fin cfg0.N) (2 : Fin 3) * 256 ≤ (i 2).val
      ∧ (i 2).val < win0_3.index (⟨(i 0).val / 2, ht⟩ : Fin cfg0.N) (2 : Fin 3) * 256 + 256
    omega

/-! ## The array after the run, and the run -/

/-- The result array after the run is `pooled` of the arguments. -/
theorem final (c : Dev nD) : (dats m 0 c).arrAt 3 cfg0.N = result m c :=
  (dats m 0 c).arrAt_eq_of_cover 3 (result m c) (fun t _ => flushed_eq m c t) (cover)

/-- Every weakly fair execution of the kernel's program ends with the result array at `pooled` of the arguments and the
    arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  Entity mean pooling: the kernel against its reference, over the extended reals.

  Both programs take document states `doc` [32, 2048, 256], entity weights `span` [32, 256, 2048] and entity lengths
  `len` [32, 256], and return [32, 256, 256]. The reference contracts `span` with `doc` over the 2048 positions, batch
  by batch, and divides by the lengths repeated along the feature axis. The kernel walks 16 grid points of two batches
  each; at a point it rounds both blocks to bf16 — the identity on the extended reals —, forms the same batched product
  into a zero accumulator, and divides by the point's lengths. Index by index both are

      (∑ l < 2048, span (b, e, l) · doc (b, l, d)) / len (b, e)

  — the same sum over the same index set and the same total quotient, so no law of the extended reals beyond the
  sums' re-indexing is used and the finiteness of the inputs is never opened (`Proof/Pooled.lean` states the function,
  `Proof/RefPooled.lean` reads the reference as it, `Proof/BlockValue.lean` reads the kernel's body on one point's
  blocks, `Proof/WholeArray.lean` sets the 16 blocks side by side). The ideal pass rewrote nothing in the kernel, so the
  idealization claim has no conjunct. The three frames are the programs' runs with the results dropped.
-/
import proofs.«128515_j6665789243982_2_alg».proof.Defs
import proofs.«128515_j6665789243982_2_alg».proof.Proof.Gen.Kernel
import proofs.«128515_j6665789243982_2_alg».proof.Proof.Gen.Kernel.Skeleton
import proofs.«128515_j6665789243982_2_alg».proof.Proof.Gen.Kernel.Launch
import proofs.«128515_j6665789243982_2_alg».proof.Proof.Gen.Kernel.Points
import proofs.«128515_j6665789243982_2_alg».proof.Proof.Gen.Kernel.Frame
import proofs.«128515_j6665789243982_2_alg».proof.Proof.Gen.KernelIdeal
import proofs.«128515_j6665789243982_2_alg».proof.Proof.Gen.KernelIdeal.Skeleton
import proofs.«128515_j6665789243982_2_alg».proof.Proof.Gen.KernelIdeal.Launch
import proofs.«128515_j6665789243982_2_alg».proof.Proof.Gen.KernelIdeal.Points
import proofs.«128515_j6665789243982_2_alg».proof.Proof.Gen.KernelIdeal.Frame
import proofs.«128515_j6665789243982_2_alg».proof.Proof.Gen.ReferenceIdeal
import proofs.«128515_j6665789243982_2_alg».proof.Proof.Gen.Pre_finite_inputs
import proofs.«128515_j6665789243982_2_alg».proof.Proof.Gen.KernelIdeal.Value
import proofs.«128515_j6665789243982_2_alg».proof.Proof.Gen.ReferenceIdeal.Run
import proofs.«128515_j6665789243982_2_alg».proof.Proof.Gen.ReferenceIdeal.Read
import proofs.«128515_j6665789243982_2_alg».proof.Proof.RefPooled
import proofs.«128515_j6665789243982_2_alg».proof.Proof.WholeArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is four host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: nothing to restate. -/
theorem preserves : Cert.preserves_Kernel_KernelIdeal := trivial

/-- From memories that agree on the three arguments, the kernel's result array ends at `pooled` of its arguments (the 16
    blocks side by side) and the reference's at `pooled` of its own (its four operations read at an index): one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_pooled,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
